-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000 : Shape := ⟨1, ![1200000]⟩
abbrev S100000x1 : Shape := ⟨2, ![100000, 1]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S64x64 : S_.BroadcastsInDim S64x64 (![] : Fin 0 → Fin S64x64.rank)
  reducesTo_S64x64_S_d0_1 : S64x64.ReducesTo [0, 1] S_
  bcast_S_S1200000 : S_.BroadcastsInDim S1200000 (![] : Fin 0 → Fin S1200000.rank)
  reducesTo_S1200000_S_d0 : S1200000.ReducesTo [0] S_

variable [Facts]

def fn_part1 {F : FTy → Type} [FloatOps F] (main_arg1 : IVec S1200000 32) (main_arg2 : IVec S1200000 32) (main_arg6 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_c_8 : IVec S_ 32 := constantI S_ 32 0#32
  let main_v24 : IVec S1200000 32 := broadcastInDim S1200000 ![] bcast_S_S1200000 main_c_8
  let main_v25 : IVec S1200000 1 := cmpi .sge main_arg1 main_v24
  let main_c_9 : IVec S_ 1 := constantI S_ 1 1#1
  let main_v26 : IVec S_ 1 := (fun x v => Host.reduce IntOp.andi x v reducesTo_S1200000_S_d0 h_S_) main_v25 main_c_9
  let main_v27 : IVec S_ 1 := andi main_v23 main_v26
  let main_c_10 : IVec S_ 32 := constantI S_ 32 0#32
  let main_v28 : IVec S1200000 32 := broadcastInDim S1200000 ![] bcast_S_S1200000 main_c_10
  let main_v29 : IVec S1200000 1 := cmpi .sge main_arg2 main_v28
  let main_c_11 : IVec S_ 1 := constantI S_ 1 1#1
  let main_v30 : IVec S_ 1 := (fun x v => Host.reduce IntOp.andi x v reducesTo_S1200000_S_d0 h_S_) main_v29 main_c_11
  let main_v31 : IVec S_ 1 := andi main_v27 main_v30
  main_v31

def fn {F : FTy → Type} [FloatOps F] (main_arg0 : FVec F S100000x64 .f32) (main_arg1 : IVec S1200000 32) (main_arg2 : IVec S1200000 32) (main_arg3 : FVec F S100000x1 .f32) (main_arg4 : FVec F S100000x1 .f32) (main_arg5 : FVec F S64x64 .f32) (main_arg6 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x1 .f32 := Host.absf main_arg3
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S100000x1 .f32 := Host.absf main_arg4
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg2 main_arg6 main_v13 main_v16
-- ==== Kernel.lean ====
abbrev S100000x64 : Shape := ⟨2, ![100000, 64]⟩
abbrev S1200000 : Shape := ⟨1, ![1200000]⟩
abbrev S100000x1 : Shape := ⟨2, ![100000, 1]⟩
abbrev S64x64 : Shape := ⟨2, ![64, 64]⟩
abbrev S_ : Shape := ⟨0, ![]⟩
abbrev S1200000x1 : Shape := ⟨2, ![1200000, 1]⟩
abbrev S1200000x64 : Shape := ⟨2, ![1200000, 64]⟩
abbrev S10000x64 : Shape := ⟨2, ![10000, 64]⟩
abbrev S10000x1 : Shape := ⟨2, ![10000, 1]⟩

abbrev nBuf : Space → Nat
  | .hbm => 36
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S100000x1, .f32⟩
  | .hbm, ⟨4, _⟩ => ⟨S100000x1, .f32⟩
  | .hbm, ⟨5, _⟩ => ⟨S64x64, .f32⟩
  | .hbm, ⟨6, _⟩ => ⟨S64x64, .f32⟩
  | .hbm, ⟨7, _⟩ => ⟨S_, .i32⟩
  | .hbm, ⟨8, _⟩ => ⟨S1200000, .i32⟩
  | .hbm, ⟨9, _⟩ => ⟨S1200000, .i1⟩
  | .hbm, ⟨10, _⟩ => ⟨S_, .i32⟩
  | .hbm, ⟨11, _⟩ => ⟨S1200000, .i32⟩
  | .hbm, ⟨12, _⟩ => ⟨S1200000, .i32⟩
  | .hbm, ⟨13, _⟩ => ⟨S1200000, .i32⟩
  | .hbm, ⟨14, _⟩ => ⟨S1200000x1, .i32⟩
  | .hbm, ⟨15, _⟩ => ⟨S1200000x64, .f32⟩
  | .hbm, ⟨16, _⟩ => ⟨S_, .f32⟩
  | .hbm, ⟨17, _⟩ => ⟨S100000x64, .f32⟩
  | .hbm, ⟨18, _⟩ => ⟨S1200000x1, .i32⟩
  | .hbm, ⟨19, _⟩ => ⟨S100000x64, .f32⟩
  | .hbm, ⟨20, _⟩ => ⟨S100000x64, .f32⟩
  | .hbm, ⟨21, _⟩ => ⟨S_, .i32⟩
  | .hbm, ⟨22, _⟩ => ⟨S1200000, .i32⟩
  | .hbm, ⟨23, _⟩ => ⟨S1200000, .i1⟩
  | .hbm, ⟨24, _⟩ => ⟨S_, .i32⟩
  | .hbm, ⟨25, _⟩ => ⟨S1200000, .i32⟩
  | .hbm, ⟨26, _⟩ => ⟨S1200000, .i32⟩
  | .hbm, ⟨27, _⟩ => ⟨S1200000, .i32⟩
  | .hbm, ⟨28, _⟩ => ⟨S1200000x1, .i32⟩
  | .hbm, ⟨29, _⟩ => ⟨S1200000x64, .f32⟩
  | .hbm, ⟨30, _⟩ => ⟨S_, .f32⟩
  | .hbm, ⟨31, _⟩ => ⟨S100000x64, .f32⟩
  | .hbm, ⟨32, _⟩ => ⟨S1200000x1, .i32⟩
  | .hbm, ⟨33, _⟩ => ⟨S100000x64, .f32⟩
  | .hbm, ⟨34, _⟩ => ⟨S100000x64, .f32⟩
  | .hbm, ⟨35, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x1, .f32⟩
  | .local _ .vmem, ⟨5, _⟩ => ⟨S10000x1, .f32⟩
  | .local _ .vmem, ⟨6, _⟩ => ⟨S10000x1, .f32⟩
  | .local _ .vmem, ⟨7, _⟩ => ⟨S10000x1, .f32⟩
  | .local _ .vmem, ⟨8, _⟩ => ⟨S64x64, .f32⟩
  | .local _ .vmem, ⟨9, _⟩ => ⟨S64x64, .f32⟩
  | .local _ .vmem, ⟨10, _⟩ => ⟨S10000x64, .f32⟩
  | .local _ .vmem, ⟨11, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  broadcasts_S10000x1_S10000x64 : S10000x1.Broadcasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x1.size a ≤ S100000x1.size a
  hwx0_3 : ∀ i : grid0.Coords, EltTy.bits .f32 = 32 ∨ (Rect.block (s := S100000x1) S10000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v10) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S10000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S1200000 : Shape := ⟨1, ![1200000]⟩
abbrev S100000x1 : Shape := ⟨2, ![100000, 1]⟩
abbrev S64x64 : Shape := ⟨2, ![64, 64]⟩
abbrev S_ : Shape := ⟨0, ![]⟩
abbrev S1200000x1 : Shape := ⟨2, ![1200000, 1]⟩
abbrev S1200000x64 : Shape := ⟨2, ![1200000, 64]⟩

abbrev nBuf : Space → Nat
  | .hbm => 50
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S100000x1, .f32⟩
  | .hbm, ⟨4, _⟩ => ⟨S100000x1, .f32⟩
  | .hbm, ⟨5, _⟩ => ⟨S64x64, .f32⟩
  | .hbm, ⟨6, _⟩ => ⟨S64x64, .f32⟩
  | .hbm, ⟨7, _⟩ => ⟨S_, .i32⟩
  | .hbm, ⟨8, _⟩ => ⟨S1200000, .i32⟩
  | .hbm, ⟨9, _⟩ => ⟨S1200000, .i1⟩
  | .hbm, ⟨10, _⟩ => ⟨S_, .i32⟩
  | .hbm, ⟨11, _⟩ => ⟨S1200000, .i32⟩
  | .hbm, ⟨12, _⟩ => ⟨S1200000, .i32⟩
  | .hbm, ⟨13, _⟩ => ⟨S1200000, .i32⟩
  | .hbm, ⟨14, _⟩ => ⟨S1200000x1, .i32⟩
  | .hbm, ⟨15, _⟩ => ⟨S1200000x64, .f32⟩
  | .hbm, ⟨16, _⟩ => ⟨S_, .i32⟩
  | .hbm, ⟨17, _⟩ => ⟨S1200000, .i32⟩
  | .hbm, ⟨18, _⟩ => ⟨S1200000, .i1⟩
  | .hbm, ⟨19, _⟩ => ⟨S_, .i32⟩
  | .hbm, ⟨20, _⟩ => ⟨S1200000, .i32⟩
  | .hbm, ⟨21, _⟩ => ⟨S1200000, .i32⟩
  | .hbm, ⟨22, _⟩ => ⟨S1200000, .i32⟩
  | .hbm, ⟨23, _⟩ => ⟨S1200000x1, .i32⟩
  | .hbm, ⟨24, _⟩ => ⟨S100000x64, .f32⟩
  | .hbm, ⟨25, _⟩ => ⟨S100000x64, .f32⟩
  | .hbm, ⟨26, _⟩ => ⟨S100000x64, .f32⟩
  | .hbm, ⟨27, _⟩ => ⟨S100000x64, .f32⟩
  | .hbm, ⟨28, _⟩ => ⟨S_, .i32⟩
  | .hbm, ⟨29, _⟩ => ⟨S1200000, .i32⟩
  | .hbm, ⟨30, _⟩ => ⟨S1200000, .i1⟩
  | .hbm, ⟨31, _⟩ => ⟨S_, .i32⟩
  | .hbm, ⟨32, _⟩ => ⟨S1200000, .i32⟩
  | .hbm, ⟨33, _⟩ => ⟨S1200000, .i32⟩
  | .hbm, ⟨34, _⟩ => ⟨S1200000, .i32⟩
  | .hbm, ⟨35, _⟩ => ⟨S1200000x1, .i32⟩
  | .hbm, ⟨36, _⟩ => ⟨S1200000x64, .f32⟩
  | .hbm, ⟨37, _⟩ => ⟨S_, .i32⟩
  | .hbm, ⟨38, _⟩ => ⟨S1200000, .i32⟩
  | .hbm, ⟨39, _⟩ => ⟨S1200000, .i1⟩
  | .hbm, ⟨40, _⟩ => ⟨S_, .i32⟩
  | .hbm, ⟨41, _⟩ => ⟨S1200000, .i32⟩
  | .hbm, ⟨42, _⟩ => ⟨S1200000, .i32⟩
  | .hbm, ⟨43, _⟩ => ⟨S1200000, .i32⟩
  | .hbm, ⟨44, _⟩ => ⟨S1200000x1, .i32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S100000x1_S100000x64_0_1 : S100000x1.BroadcastsInDim S100000x64 (![0, 1] : Fin 2 → Fin S100000x64.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Combine.lean ====
/-
  What both programs compute from the two aggregated feature arrays.

  With `A`, `B` the two aggregated arrays (100000 rows of 64 features), `n`, `n'` the two per-row scales
  (one number per row) and `W`, `W'` the two 64 × 64 weight matrices, entry `(p, c)` of the result is

      Σ_k (n p · A (p, k)) · W (k, c)  +  Σ_k (n' p · B (p, k)) · W' (k, c),

  `k` ranging over the 64 features: each row is scaled, multiplied by its weight matrix, and the two products are
  added.  Row `p` of the result depends on row `p` of `A`, `B`, `n`, `n'` only, which is why the rows can be
  processed in blocks.
-/
import Idealize.ShloMosaic.PureOps.Ideal
import Idealize.ShloMosaic.Lib.ValueIdx

noncomputable section

open scoped BigOperators

namespace Cert.BiConv

open Idealize.ShloMosaic Idealize.ShloMosaic.ValueIdx

/-- Entry `(p, c)` of the scaled-and-projected sum, for arrays of `R` rows. -/
def combineAt {R : Nat} (A B : (⟨2, ![R, 64]⟩ : Shape).Idx → EReal) (n n' : (⟨2, ![R, 1]⟩ : Shape).Idx → EReal)
    (W W' : (⟨2, ![64, 64]⟩ : Shape).Idx → EReal) (p : Fin R) (c : Fin 64) : EReal :=
  (∑ k : Fin 64, (n (ix2 p (0 : Fin 1)) * A (ix2 p k)) * W (ix2 k c))
    + ∑ k : Fin 64, (n' (ix2 p (0 : Fin 1)) * B (ix2 p k)) * W' (ix2 k c)

/-- The whole result array. -/
def combine {R : Nat} (A B : (⟨2, ![R, 64]⟩ : Shape).Idx → EReal) (n n' : (⟨2, ![R, 1]⟩ : Shape).Idx → EReal)
    (W W' : (⟨2, ![64, 64]⟩ : Shape).Idx → EReal) : (⟨2, ![R, 64]⟩ : Shape).Idx → EReal :=
  fun i => combineAt A B n n' W W' (i 0) (i 1)

theorem combine_ix2 {R : Nat} (A B : (⟨2, ![R, 64]⟩ : Shape).Idx → EReal) (n n' : (⟨2, ![R, 1]⟩ : Shape).Idx → EReal)
    (W W' : (⟨2, ![64, 64]⟩ : Shape).Idx → EReal) (p : Fin R) (c : Fin 64) :
    combine A B n n' W W' (ix2 p c) = combineAt A B n n' W W' p c := rfl

end Cert.BiConv

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.BlockValue.lean ====
/-
  What the kernel body computes on one block of 10000 rows.

  The body reads a block of each aggregated array, the block's two columns of scales and the two weight matrices,
  spreads each scale across its row, multiplies, and sends both scaled blocks through the matrix unit against their
  weight matrices, adding the two products.  The narrowing of the factors to a shorter float format is the identity on
  extended reals, and the matrix unit started from zeros returns the plain sum of products; so entry `(p, c)` of the
  stored block is the scaled-and-projected sum of the loaded blocks at `(p, c)`.
-/
import proofs.«154435_j12094627906069_2_alg».proof.Proof.Gen.KernelIdeal.Skeleton
import proofs.«154435_j12094627906069_2_alg».proof.Proof.Combine
import proofs.«154435_j12094627906069_2_alg».proof.Proof.LibPlainDot
import proofs.«154435_j12094627906069_2_alg».proof.Proof.LibKeepdims
import Idealize.ShloMosaic.Lib.Pipeline.Value
import Idealize.ShloMosaic.Lib.ValueIdx
import Idealize.ShloMosaic.PureOps.Ideal.Laws

noncomputable section

open scoped BigOperators

namespace Cert.BiConv

open Idealize.ShloMosaic Idealize.ShloMosaic.ValueIdx Cert.KernelIdeal Cert.KernelIdeal.Gen

/-- The block product's dimension numbers are those of a plain product of a 10000 × 64 by a 64 × 64 matrix. -/
theorem blockDot_plain : Cert.LibPlainDot.Plain (A := 10000) (K := 64) (B := 64) dot_S10000x64_S64x64_S10000x64_1_0_0_1_n_n :=
  ⟨rfl, rfl, rfl, rfl, rfl, rfl⟩

/-- A scaled block sent through the matrix unit from zeros: entry `(p, c)` is `Σ_k (s p · a (p, k)) · w (k, c)`. -/
theorem scaled_product_apply (a : Vec Ideal S10000x64 .f32) (s : Vec Ideal S10000x1 .f32) (w : Vec Ideal S64x64 .f32)
    (p : Fin 10000) (c : Fin 64) :
    matmul (F := Ideal) dot_S10000x64_S64x64_S10000x64_1_0_0_1_n_n none
        (truncf .bf16 (mulf (broadcastTo S10000x64 s broadcasts_S10000x1_S10000x64) (shapeCast S10000x64 a shapeCasts_S10000x64_S10000x64)) bitsLt_bf16_f32)
        (truncf .bf16 w bitsLt_bf16_f32) (constant S10000x64 .f32 0x00000000#32) (ix2 p c)
      = ∑ k : Fin 64, (s (ix2 p (0 : Fin 1)) * a (ix2 p k)) * w (ix2 k c) := by
  refine (Ideal.matmul_constant_zero_apply _ none _ _ (ix2 p c)).trans ?_
  refine (blockDot_plain.sum_eq _ _ p c).trans ?_
  refine Finset.sum_congr rfl fun k _ => ?_
  rw [truncf_apply, truncf_apply, mulf_apply, shapeCast_self, Cert.LibKeepdims.broadcastTo_a1_ab_apply]

/-- The stored block at `(p, c)` is the scaled-and-projected sum of the loaded blocks. -/
theorem payload_apply (a b : Vec Ideal S10000x64 .f32) (s s' : Vec Ideal S10000x1 .f32) (w w' : Vec Ideal S64x64 .f32)
    (p : Fin 10000) (c : Fin 64) :
    k0_pay1 (F := Ideal) a b s s' w w' (ix2 p c) = combineAt a b s s' w w' p c := by
  unfold k0_pay1 combineAt
  rw [addf_apply, scaled_product_apply, scaled_product_apply]

/-- The same at any entry of the block, named by its two coordinates. -/
theorem payload_at (a b : Vec Ideal S10000x64 .f32) (s s' : Vec Ideal S10000x1 .f32) (w w' : Vec Ideal S64x64 .f32)
    (j : S10000x64.Idx) :
    k0_pay1 (F := Ideal) a b s s' w w' j = combineAt a b s s' w w' (j 0) (j 1) := by
  obtain ⟨p, c, rfl⟩ : ∃ (p : Fin 10000) (c : Fin 64), j = ix2 p c := ⟨j 0, j 1, eq_ix2 j⟩
  exact payload_apply a b s s' w w' p c

end Cert.BiConv

end
-- ==== Proof.KernelArray.lean ====
/-
  From blocks to the array: after the run the kernel's result array is the scaled-and-projected sum of the arrays the
  region was entered with.

  The grid has ten points; point `t` works on rows `10000·t … 10000·t + 9999`: its blocks of the two aggregated arrays
  and of the two scale columns are those rows, the two weight matrices are read whole at every point, and the block it
  writes back is those rows of the result.  Since row `r` of the scaled-and-projected sum depends on row `r` of the
  inputs only, what point `t` writes is rows `10000·t …` of the sum over the whole arrays; the ten blocks cover all
  100000 rows (row `r` lies in block `r / 10000`), so the array ends holding the sum.

  The facts about blocks are stated for ARBITRARY arrays `A B n n' W W'` of the right shapes and only then used for the
  arrays the region is entered with.
-/
import proofs.«154435_j12094627906069_2_alg».proof.Proof.Gen.KernelIdeal.Value
import proofs.«154435_j12094627906069_2_alg».proof.Proof.BlockValue
import Idealize.ShloMosaic.Lib.Pipeline.Value
import Idealize.ShloMosaic.Lib.ValueIdx

noncomputable section

open scoped BigOperators

namespace Cert.BiConv

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value

theorem zero_offsets : (![0, 0] : Fin 2 → Nat) = fun _ => 0 := funext fun a => by fin_cases a <;> rfl

/-- The printed index maps over the ten points: the row-blocked windows sit at block `(t, 0)`, the weights at `(0, 0)`. -/
theorem block_indices : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-- Every one of the ten row blocks is some point's. -/
theorem block_onto : ∀ q : Fin 10, ∃ t : Fin cfg0.N, t.val = q.val :=
  (by decide +kernel : ∀ q : Fin 10, ∃ t : Fin grid0.N, t.val = q.val)

section Blocks

variable (A B : S100000x64.Idx → EReal) (n n' : S100000x1.Idx → EReal) (W W' : S64x64.Idx → EReal)

/-- Point `t`'s block of a row-blocked 64-column array (window 0) is rows `10000·t …` of it. -/
theorem block0_apply (t : Fin cfg0.N) (x : S10000x64.Idx) (k : S100000x64.Idx)
    (hk0 : (k 0).val = 10000 * t.val + (x 0).val) (hk1 : (k 1).val = (x 1).val) :
    (((cfg0.win 0).blk t).view.read (Elt Ideal) A : Vec Ideal S10000x64 .f32) x = A k := by
  obtain ⟨⟨h0, h1⟩, -⟩ := block_indices t
  rw [View.read_apply]
  refine congrArg A (funext fun a => Fin.ext ?_)
  match a with
  | ⟨0, _⟩ => show win0_0.index t 0 * 10000 + 1 * (x 0).val = (k 0).val; rw [h0, hk0]; omega
  | ⟨1, _⟩ => show win0_0.index t 1 * 64 + 1 * (x 1).val = (k 1).val; rw [h1, hk1]; omega

/-- The same for window 1. -/
theorem block1_apply (t : Fin cfg0.N) (x : S10000x64.Idx) (k : S100000x64.Idx)
    (hk0 : (k 0).val = 10000 * t.val + (x 0).val) (hk1 : (k 1).val = (x 1).val) :
    (((cfg0.win 1).blk t).view.read (Elt Ideal) B : Vec Ideal S10000x64 .f32) x = B k := by
  obtain ⟨-, ⟨h0, h1⟩, -⟩ := block_indices t
  rw [View.read_apply]
  refine congrArg B (funext fun a => Fin.ext ?_)
  match a with
  | ⟨0, _⟩ => show win0_1.index t 0 * 10000 + 1 * (x 0).val = (k 0).val; rw [h0, hk0]; omega
  | ⟨1, _⟩ => show win0_1.index t 1 * 64 + 1 * (x 1).val = (k 1).val; rw [h1, hk1]; omega

/-- Point `t`'s block of a one-column array (window 2) is rows `10000·t …` of it. -/
theorem block2_apply (t : Fin cfg0.N) (x : S10000x1.Idx) (k : S100000x1.Idx)
    (hk0 : (k 0).val = 10000 * t.val + (x 0).val) :
    (((cfg0.win 2).blk t).view.read (Elt Ideal) n : Vec Ideal S10000x1 .f32) x = n k := by
  obtain ⟨-, -, ⟨h0, h1⟩, -⟩ := block_indices t
  rw [View.read_apply]
  refine congrArg n (funext fun a => Fin.ext ?_)
  match a with
  | ⟨0, _⟩ => show win0_2.index t 0 * 10000 + 1 * (x 0).val = (k 0).val; rw [h0, hk0]; omega
  | ⟨1, _⟩ =>
    show win0_2.index t 1 * 1 + 1 * (x 1).val = (k 1).val
    have hx : (x 1).val < 1 := (x 1).isLt
    have hk : (k 1).val < 1 := (k 1).isLt
    rw [h1]; omega

/-- The same for window 3. -/
theorem block3_apply (t : Fin cfg0.N) (x : S10000x1.Idx) (k : S100000x1.Idx)
    (hk0 : (k 0).val = 10000 * t.val + (x 0).val) :
    (((cfg0.win 3).blk t).view.read (Elt Ideal) n' : Vec Ideal S10000x1 .f32) x = n' k := by
  obtain ⟨-, -, -, ⟨h0, h1⟩, -⟩ := block_indices t
  rw [View.read_apply]
  refine congrArg n' (funext fun a => Fin.ext ?_)
  match a with
  | ⟨0, _⟩ => show win0_3.index t 0 * 10000 + 1 * (x 0).val = (k 0).val; rw [h0, hk0]; omega
  | ⟨1, _⟩ =>
    show win0_3.index t 1 * 1 + 1 * (x 1).val = (k 1).val
    have hx : (x 1).val < 1 := (x 1).isLt
    have hk : (k 1).val < 1 := (k 1).isLt
    rw [h1]; omega

/-- Every point's block of a 64 × 64 matrix (window 4) is the matrix. -/
theorem block4_apply (t : Fin cfg0.N) (x : S64x64.Idx) :
    (((cfg0.win 4).blk t).view.read (Elt Ideal) W : Vec Ideal S64x64 .f32) x = W x := by
  obtain ⟨-, -, -, -, ⟨h0, h1⟩, -⟩ := block_indices t
  rw [View.read_apply]
  refine congrArg W (funext fun a => Fin.ext ?_)
  match a with
  | ⟨0, _⟩ => show win0_4.index t 0 * 64 + 1 * (x 0).val = (x 0).val; rw [h0]; omega
  | ⟨1, _⟩ => show win0_4.index t 1 * 64 + 1 * (x 1).val = (x 1).val; rw [h1]; omega

/-- The same for window 5. -/
theorem block5_apply (t : Fin cfg0.N) (x : S64x64.Idx) :
    (((cfg0.win 5).blk t).view.read (Elt Ideal) W' : Vec Ideal S64x64 .f32) x = W' x := by
  obtain ⟨-, -, -, -, -, ⟨h0, h1⟩, -⟩ := block_indices t
  rw [View.read_apply]
  refine congrArg W' (funext fun a => Fin.ext ?_)
  match a with
  | ⟨0, _⟩ => show win0_5.index t 0 * 64 + 1 * (x 0).val = (x 0).val; rw [h0]; omega
  | ⟨1, _⟩ => show win0_5.index t 1 * 64 + 1 * (x 1).val = (x 1).val; rw [h1]; omega

/-- The block sum at `(p, q)` of point `t`'s blocks is the whole-array sum at row `10000·t + p`. -/
theorem block_sum (t : Fin cfg0.N) (p : Fin 10000) (q : Fin 64) (r : Fin 100000) (hr : r.val = 10000 * t.val + p.val) :
    combineAt (((cfg0.win 0).blk t).view.read (Elt Ideal) A : Vec Ideal S10000x64 .f32)
        (((cfg0.win 1).blk t).view.read (Elt Ideal) B : Vec Ideal S10000x64 .f32)
        (((cfg0.win 2).blk t).view.read (Elt Ideal) n : Vec Ideal S10000x1 .f32)
        (((cfg0.win 3).blk t).view.read (Elt Ideal) n' : Vec Ideal S10000x1 .f32)
        (((cfg0.win 4).blk t).view.read (Elt Ideal) W : Vec Ideal S64x64 .f32)
        (((cfg0.win 5).blk t).view.read (Elt Ideal) W' : Vec Ideal S64x64 .f32) p q
      = combineAt A B n n' W W' r q := by
  unfold combineAt
  rw [block2_apply n t (ix2 p (0 : Fin 1)) (ix2 r (0 : Fin 1)) hr, block3_apply n' t (ix2 p (0 : Fin 1)) (ix2 r (0 : Fin 1)) hr]
  congr 1
  · refine Finset.sum_congr rfl fun k _ => ?_
    rw [block0_apply A t (ix2 p k) (ix2 r k) hr rfl, block4_apply W t (ix2 k q)]
  · refine Finset.sum_congr rfl fun k _ => ?_
    rw [block1_apply B t (ix2 p k) (ix2 r k) hr rfl, block5_apply W' t (ix2 k q)]

/-- The body's result on point `t`'s blocks, read through the output window, is point `t`'s block of the whole-array sum. -/
theorem point_result (t : Fin cfg0.N) :
    (cfg0.win 6).cut (grid0.coords t)
        (k0_pay1 (F := Ideal) (((cfg0.win 0).blk t).view.read (Elt Ideal) A) (((cfg0.win 1).blk t).view.read (Elt Ideal) B)
          (((cfg0.win 2).blk t).view.read (Elt Ideal) n) (((cfg0.win 3).blk t).view.read (Elt Ideal) n')
          (((cfg0.win 4).blk t).view.read (Elt Ideal) W) (((cfg0.win 5).blk t).view.read (Elt Ideal) W'))
      = ((cfg0.win 6).blk t).view.read (Elt Ideal) (combine A B n n' W W') := by
  obtain ⟨-, -, -, -, -, -, ⟨h0, h1⟩⟩ := block_indices t
  funext j
  show k0_pay1 (F := Ideal) (((cfg0.win 0).blk t).view.read (Elt Ideal) A) (((cfg0.win 1).blk t).view.read (Elt Ideal) B)
          (((cfg0.win 2).blk t).view.read (Elt Ideal) n) (((cfg0.win 3).blk t).view.read (Elt Ideal) n')
          (((cfg0.win 4).blk t).view.read (Elt Ideal) W) (((cfg0.win 5).blk t).view.read (Elt Ideal) W') j
      = combine A B n n' W W' (((cfg0.win 6).blk t).view.emb j)
  have e0 : ((((cfg0.win 6).blk t).view.emb j) 0).val = 10000 * t.val + (j 0).val := by
    show win0_6.index t 0 * 10000 + 1 * (j 0).val = _
    rw [h0]; omega
  have e1 : ((((cfg0.win 6).blk t).view.emb j) 1).val = (j 1).val := by
    show win0_6.index t 1 * 64 + 1 * (j 1).val = _
    rw [h1]; omega
  refine (payload_at _ _ _ _ _ _ j).trans ?_
  unfold combine
  have hq : ((((cfg0.win 6).blk t).view.emb j) 1) = j 1 := Fin.ext e1
  rw [hq]
  exact block_sum A B n n' W W' t (j 0) (j 1) _ e0

end Blocks

variable (m : (ℓ : Loc nD τ sig) → Buf (Elt Ideal) ℓ) (ρ : Dev nD → PrngReg)

/-- The scaled-and-projected sum of the arrays as the region finds them. -/
def entrySum (c : Dev nD) : S100000x64.Idx → EReal :=
  combine (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))

/-- What point `t` writes back is its block of the whole-array sum. -/
theorem flushed_eq (c : Dev nD) (t : Fin cfg0.N) :
    (dats m 0 c).flushed 6 t = ((cfg0.win 6).blk t).view.read (Elt Ideal) (entrySum m c) := by
  show (cfg0.win 6).cut (grid0.coords t) ((dats m 0 c).after 6 t) = _
  rw [after0_6]
  unfold out0_6
  rw [View.canon_unit_zero zero_offsets]
  simp only [View.ld_unit_zero (S := S10000x64) zero_offsets, View.ld_unit_zero (S := S10000x1) zero_offsets,
    View.ld_unit_zero (S := S64x64) zero_offsets]
  unfold iblk entrySum
  exact point_result _ _ _ _ _ _ t

/-- An index of the array is in point `t`'s block iff each coordinate is in the block's range on its axis. -/
theorem mem_block (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v22).slice (win0_6.rect t)).set ↔ _
  rw [View.set_slice_whole, Rect.mem_set_unit]
  exact Iff.rfl

/-- Row `r` lies in the block of point `r / 10000`: the ten blocks cover the array. -/
theorem covered (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ := block_onto ⟨(i 0).val / 10000, by omega⟩
  have ht' : t.val = (i 0).val / 10000 := ht
  obtain ⟨-, -, -, -, -, -, ⟨h0, h1⟩⟩ := block_indices t
  refine ⟨t, flush0_6 t, ?_⟩
  rw [mem_block]
  intro a
  match a with
  | ⟨0, _⟩ => show win0_6.index t (0 : Fin 2) * 10000 ≤ (i 0).val ∧ (i 0).val < win0_6.index t (0 : Fin 2) * 10000 + 10000; rw [h0]; omega
  | ⟨1, _⟩ => show win0_6.index t (1 : Fin 2) * 64 ≤ (i 1).val ∧ (i 1).val < win0_6.index t (1 : Fin 2) * 64 + 64; rw [h1]; omega

/-- The result array after the run is the scaled-and-projected sum of the arrays the region was entered with. -/
theorem final (c : Dev nD) : (dats m 0 c).arrAt 6 cfg0.N = entrySum m c :=
  (dats m 0 c).arrAt_eq_of_cover 6 (entrySum m c) (fun t _ => flushed_eq m c t) covered

end Cert.BiConv

end
-- ==== Proof.HostAggregate.lean ====
/-
  The two aggregated arrays the kernel's region is entered with are the reference's two aggregated arrays.

  Before the region the kernel's program gathers, for every edge, the feature row of one endpoint (negative row numbers
  wrapped), accumulates these rows into an array of zeros at the rows the OTHER endpoint names (row numbers as they
  are), and adds the feature array.  The reference gathers the same rows and accumulates them into the feature array
  itself, at the other endpoint's row numbers after wrapping.  When the row numbers are nonnegative the wrap is the
  identity, so both accumulate the same updates at the same rows; and starting from zeros and adding the features
  afterwards is starting from the features.
-/
import proofs.«154435_j12094627906069_2_alg».proof.Proof.Gen.KernelIdeal.Frame
import proofs.«154435_j12094627906069_2_alg».proof.Proof.Gen.ReferenceIdeal.Read
import Idealize.ShloMosaic.Lib.StableHlo.Run
import Idealize.ShloMosaic.Lib.ValueIdx
import Idealize.ShloMosaic.Lib.Pipeline.Value

noncomputable section

namespace Cert.BiConv

open Idealize.ShloMosaic Idealize.ShloMosaic.TcCoe Idealize.SL.Sem Idealize.ShloMosaic.ValueIdx
open Cert.KernelIdeal Cert.KernelIdeal.Gen

/-- Row numbers with the negative ones moved up by the number of rows. -/
def wrapped (a : IVec S1200000 32) : IVec S1200000 32 :=
  select (cmpi .slt a (broadcastInDim S1200000 ![] bcast_S_S1200000 (constantI S_ 32 0#32)))
    (addi a (broadcastInDim S1200000 ![] bcast_S_S1200000 (constantI S_ 32 100000#32))) a

/-- The kernel program's aggregation: the rows `x[wrapped from]` accumulated into zeros at rows `to`, plus `x`. -/
def zeroAggregate (x : FVec Ideal S100000x64 .f32) (src dst : IVec S1200000 32) : FVec Ideal S100000x64 .f32 :=
  addf (Host.scatterAdd scatter_S100000x64_S1200000x1_S1200000x64_1_0_0_1
      (broadcastInDim S100000x64 ![] bcast_S_S100000x64 (constant (F := Ideal) S_ .f32 0x00000000#32))
      (broadcastInDim S1200000x1 ![0] bcast_S1200000_S1200000x1_0 dst)
      (Host.gather gather_S100000x64_S1200000x1_S1200000x64_1_0_n_n_0_1_164 x
        (broadcastInDim S1200000x1 ![0] bcast_S1200000_S1200000x1_0 (wrapped src)))) x

variable (m : (ℓ : Loc nD τ sig) → Buf (Elt Ideal) ℓ)

set_option maxHeartbeats 1000000 in
/-- The first aggregated array as the region finds it: gathered at the sources, accumulated at the targets. -/
theorem entry_out (c : Dev nD) :
    (V m c main_v10 : S100000x64.Idx → EReal)
      = zeroAggregate (m ((c : Thread nD τ).loc main_arg0)) (m ((c : Thread nD τ).loc main_arg1)) (m ((c : Thread nD τ).loc main_arg2)) := by
  dsimp only [V, hostOps0]
  after_results_simp <;> rfl

set_option maxHeartbeats 1000000 in
/-- The second aggregated array as the region finds it: gathered at the targets, accumulated at the sources. -/
theorem entry_back (c : Dev nD) :
    (V m c main_v21 : S100000x64.Idx → EReal)
      = zeroAggregate (m ((c : Thread nD τ).loc main_arg0)) (m ((c : Thread nD τ).loc main_arg2)) (m ((c : Thread nD τ).loc main_arg1)) := by
  dsimp only [V, hostOps0]
  after_results_simp <;> rfl

/-- The array of zeros the kernel program accumulates into is zero at every entry. -/
theorem accumulator_zero_apply (j : S100000x64.Idx) :
    broadcastInDim S100000x64 ![] bcast_S_S100000x64 (constant (F := Ideal) S_ .f32 0x00000000#32) j = (0 : EReal) :=
  (broadcastInDim_apply _ bcast_S_S100000x64 (constant (F := Ideal) S_ .f32 0x00000000#32) j (fun a => a.elim0)
    (fun a => a.elim0)).trans Ideal.ofBits_zero_f32

end Cert.BiConv

end
-- ==== Proof.LibScatterZero.lean ====
/-
  Two laws about an accumulating scatter (`x.at[rows].add(updates)`) over the extended reals and about the wrap of
  negative row numbers that precedes it, generic in the shapes.

  A program that accumulates updates into an array `x` at given row numbers may first wrap a negative row number `i`
  to `i + n`, and may start either from `x` itself or from zeros, adding `x` afterwards.

  * On a nonnegative row number the wrap does nothing: the test `i < 0` fails, so the selection keeps `i`.
  * Over the extended reals an accumulating scatter is, entry by entry, the starting entry plus the sum of the
    updates that land on it; starting from zero and adding `x` afterwards is therefore the same as starting
    from `x` — only `0 + s = s` and the commutativity of the sum are used, which hold at the infinities too.
-/
import Idealize.ShloMosaic.PureOps.Ideal
import Idealize.ShloMosaic.Lib.Affine

noncomputable section

namespace Cert.LibScatterZero

open Idealize.ShloMosaic

/-- A word that is nonnegative read signed is not below zero, so wrapping leaves it alone. -/
theorem wrap_of_nonneg (w n : BitVec 32) (h : IntOp.cmpi .sge w 0#32 = 1#1) :
    Scalar.select (IntOp.cmpi .slt w 0#32) (IntOp.addi w n) w = w := by
  unfold Scalar.select
  refine if_neg fun hlt => ?_
  have h0 := IntOp.cmpi_sge.1 h
  have h1 := IntOp.cmpi_slt.1 hlt
  omega

/-- Accumulating the updates into zeros and then adding `x` gives, at every entry, what accumulating them into
    `x` gives. -/
theorem scatter_zero_add {s si su : Shape} (d : ScatterDims s si su) {w : Nat} (x z : s.Idx → EReal) (idx : IVec si w)
    (upd : su.Idx → EReal) (hz : ∀ i, z i = 0) (i : s.Idx) :
    Ideal.hostScatterAdd d z idx upd i + x i = Ideal.hostScatterAdd d x idx upd i := by
  unfold Ideal.hostScatterAdd
  rw [hz i, zero_add, add_comm]

/-- The same for whole arrays, in the host operations' own spelling. -/
theorem host_scatter_zero_add {s si su : Shape} (d : ScatterDims s si su) {w : Nat} (x z : FVec Ideal s .f32) (idx : IVec si w)
    (upd : FVec Ideal su .f32) (hz : ∀ i, z i = (0 : EReal)) :
    addf (Host.scatterAdd d z idx upd) x = Host.scatterAdd d x idx upd :=
  funext fun i => scatter_zero_add d x z idx upd hz i

end Cert.LibScatterZero

end
-- ==== Proof.AggregateBridge.lean ====
/-
  With nonnegative row numbers the kernel program's two aggregated arrays are the reference's.

  Both programs gather the same rows (the gathering endpoint's row numbers are wrapped in both).  The reference also
  wraps the row numbers it accumulates at, the kernel program does not; on nonnegative row numbers the wrap is the
  identity, so both accumulate the same updates at the same rows, and accumulating into zeros and then adding the
  features is accumulating into the features.
-/
import proofs.«154435_j12094627906069_2_alg».proof.Proof.HostAggregate
import proofs.«154435_j12094627906069_2_alg».proof.Proof.LibScatterZero

noncomputable section

namespace Cert.BiConv

open Idealize.ShloMosaic Idealize.ShloMosaic.TcCoe Idealize.SL.Sem Idealize.ShloMosaic.ValueIdx
open Cert.KernelIdeal Cert.KernelIdeal.Gen Cert.LibScatterZero

/-- The two programs print the same accumulation pattern (rows of a 64-column array, one row number per update). -/
theorem scatterDims_eq : Cert.ReferenceIdeal.scatter_S100000x64_S1200000x1_S1200000x64_1_0_0_1
    = Cert.KernelIdeal.scatter_S100000x64_S1200000x1_S1200000x64_1_0_0_1 := rfl

/-- The reference's first gather is the kernel program's: rows `x[wrapped src]`. -/
theorem ref_gather_out (x : FVec Ideal S100000x64 .f32) (a : IVec S1200000 32) :
    Cert.ReferenceIdeal.Read.val_main_v6 (F := Ideal) x a
      = Host.gather gather_S100000x64_S1200000x1_S1200000x64_1_0_n_n_0_1_164 x
        (broadcastInDim S1200000x1 ![0] bcast_S1200000_S1200000x1_0 (wrapped a)) := rfl

/-- The reference's second gather is the kernel program's: rows `x[wrapped tgt]`. -/
theorem ref_gather_back (x : FVec Ideal S100000x64 .f32) (a : IVec S1200000 32) :
    Cert.ReferenceIdeal.Read.val_main_v23 (F := Ideal) x a
      = Host.gather gather_S100000x64_S1200000x1_S1200000x64_1_0_n_n_0_1_164 x
        (broadcastInDim S1200000x1 ![0] bcast_S1200000_S1200000x1_0 (wrapped a)) := rfl

/-- On nonnegative row numbers the reference's wrap before its first accumulation is the identity. -/
theorem ref_rows_out (a : IVec S1200000 32) (h : ∀ e, IntOp.cmpi .sge (a e) 0#32 = 1#1) :
    Cert.ReferenceIdeal.Read.val_main_v11 (F := Ideal) a = a := by
  funext e
  rw [Cert.ReferenceIdeal.Read.val_main_v11_apply, Cert.ReferenceIdeal.Read.val_main_v8_apply, Cert.ReferenceIdeal.Read.val_main_v10_apply,
    Cert.ReferenceIdeal.Read.val_main_v7_apply, Cert.ReferenceIdeal.Read.val_main_c_1_apply]
  exact wrap_of_nonneg _ _ (h e)

/-- On nonnegative row numbers the reference's wrap before its second accumulation is the identity. -/
theorem ref_rows_back (a : IVec S1200000 32) (h : ∀ e, IntOp.cmpi .sge (a e) 0#32 = 1#1) :
    Cert.ReferenceIdeal.Read.val_main_v28 (F := Ideal) a = a := by
  funext e
  rw [Cert.ReferenceIdeal.Read.val_main_v28_apply, Cert.ReferenceIdeal.Read.val_main_v25_apply, Cert.ReferenceIdeal.Read.val_main_v27_apply,
    Cert.ReferenceIdeal.Read.val_main_v24_apply, Cert.ReferenceIdeal.Read.val_main_c_5_apply]
  exact wrap_of_nonneg _ _ (h e)

/-- With nonnegative accumulation rows, the kernel program's first aggregation is the reference's. -/
theorem zeroAggregate_eq_out (x : FVec Ideal S100000x64 .f32) (src dst : IVec S1200000 32)
    (h : ∀ e, IntOp.cmpi .sge (dst e) 0#32 = 1#1) :
    zeroAggregate x src dst = Cert.ReferenceIdeal.Read.val_main_v13 (F := Ideal) x src dst := by
  unfold zeroAggregate Cert.ReferenceIdeal.Read.val_main_v13 Cert.ReferenceIdeal.Read.val_main_v12
  rw [ref_rows_out dst h, ref_gather_out, scatterDims_eq]
  exact host_scatter_zero_add _ x _ _ _ accumulator_zero_apply

/-- With nonnegative accumulation rows, the kernel program's second aggregation (the edges reversed) is the
    reference's. -/
theorem zeroAggregate_eq_back (x : FVec Ideal S100000x64 .f32) (src dst : IVec S1200000 32)
    (h : ∀ e, IntOp.cmpi .sge (src e) 0#32 = 1#1) :
    zeroAggregate x dst src = Cert.ReferenceIdeal.Read.val_main_v30 (F := Ideal) x src dst := by
  unfold zeroAggregate Cert.ReferenceIdeal.Read.val_main_v30 Cert.ReferenceIdeal.Read.val_main_v29
  rw [ref_rows_back src h, ref_gather_back, scatterDims_eq]
  exact host_scatter_zero_add _ x _ _ _ accumulator_zero_apply

end Cert.BiConv

end
-- ==== Proof.EdgeRange.lean ====
/-
  The precondition, read at one edge: both endpoints' row numbers are nonnegative.

  The precondition is a conjunction of "all entries satisfy …" tests, each a reduction by `and` of a one-bit array
  to a single bit, and it says the conjunction is 1.  The last two conjuncts test `0 ≤ sources[e]` and
  `0 ≤ targets[e]` (signed) over all edges `e`; a conjunction that is 1 has every conjunct 1, and a reduction by
  `and` that is 1 met only ones.
-/
import proofs.«154435_j12094627906069_2_alg».proof.Defs
import proofs.«154435_j12094627906069_2_alg».proof.Proof.Gen.Pre_finite_inputs
import Idealize.ShloMosaic.Lib.ReduceAll
import Idealize.ShloMosaic.Lib.ValueIdx
import Idealize.ShloMosaic.Lib.Pipeline.Value

noncomputable section

namespace Cert.BiConv

open Idealize.ShloMosaic Idealize.ShloMosaic.TcCoe Idealize.SL.Sem Cert.KernelIdeal

instance : Subsingleton Cert.Pre_finite_inputs.S_.Idx := ⟨fun _ _ => funext fun d => d.elim0⟩

/-- The all-zero comparison operand read at an edge is the zero word. -/
theorem bound_zero_apply (e : Cert.Pre_finite_inputs.S1200000.Idx) :
    broadcastInDim Cert.Pre_finite_inputs.S1200000 ![] Cert.Pre_finite_inputs.Facts.bcast_S_S1200000
      (constantI Cert.Pre_finite_inputs.S_ 32 0#32) e = 0#32 :=
  broadcastInDim_apply _ _ (constantI Cert.Pre_finite_inputs.S_ 32 0#32) e (fun a => a.elim0) (fun a => a.elim0)

/-- Under the precondition, at every edge both row numbers are nonnegative (read signed). -/
theorem endpoints_nonneg (m : (ℓ : Loc nD τ sig) → Buf (Elt Ideal) ℓ) (h : Cert.Pre_KernelIdeal m) (c : Dev nD)
    (e : S1200000.Idx) :
    IntOp.cmpi .sge (m ((c.tc : Thread nD τ).loc main_arg1) e) 0#32 = 1#1
      ∧ IntOp.cmpi .sge (m ((c.tc : Thread nD τ).loc main_arg2) e) 0#32 = 1#1 := by
  have h0 := congrFun (h c) (fun a => a.elim0)
  dsimp only [Cert.Pre_finite_inputs.fn, Cert.Pre_finite_inputs.fn_part1] at h0
  obtain ⟨h1, h30⟩ := IntOp.andi_eq_one.1 h0
  obtain ⟨-, h26⟩ := IntOp.andi_eq_one.1 h1
  have a1 := Host.reduce_andi_all _ _ _ _ _ h26 e
  have a2 := Host.reduce_andi_all _ _ _ _ _ h30 e
  refine ⟨?_, ?_⟩
  · have := a1
    rw [show cmpi .sge (m ((c.tc : Thread nD τ).loc main_arg1)) _ e = IntOp.cmpi .sge (m ((c.tc : Thread nD τ).loc main_arg1) e) _ from rfl, bound_zero_apply] at this
    exact this
  · have := a2
    rw [show cmpi .sge (m ((c.tc : Thread nD τ).loc main_arg2)) _ e = IntOp.cmpi .sge (m ((c.tc : Thread nD τ).loc main_arg2) e) _ from rfl, bound_zero_apply] at this
    exact this

end Cert.BiConv

end
-- ==== Proof.ReferenceValue.lean ====
/-
  The reference, read entry by entry.

  After its two aggregations the reference spreads each scale over its row, multiplies, contracts each scaled array
  with its weight matrix over the 64 features, and adds.  At entry `(p, c)` the contraction reads the scaled array at
  `(p, k)` and the weights at `(k, c)`, and the spread scale at `(p, k)` is the scale of row `p`: the result is the
  scaled-and-projected sum of the reference's two aggregated arrays.
-/
import proofs.«154435_j12094627906069_2_alg».proof.Proof.Gen.ReferenceIdeal.Read
import proofs.«154435_j12094627906069_2_alg».proof.Proof.Combine

noncomputable section

open scoped BigOperators

namespace Cert.BiConv

open Idealize.ShloMosaic Idealize.ShloMosaic.ValueIdx Cert.ReferenceIdeal Cert.ReferenceIdeal.Read

theorem reference_eq_combine (x0 : FVec Ideal S100000x64 .f32) (x1 x2 : IVec S1200000 32) (x3 x4 : FVec Ideal S100000x1 .f32)
    (x5 x6 : FVec Ideal S64x64 .f32) :
    val_main_v34 (F := Ideal) x0 x1 x2 x3 x4 x5 x6
      = combine (val_main_v13 (F := Ideal) x0 x1 x2) (val_main_v30 (F := Ideal) x0 x1 x2) x3 x4 x5 x6 := by
  funext i
  obtain ⟨p, c, rfl⟩ : ∃ (p : Fin 100000) (c : Fin 64), i = ix2 p c := ⟨i 0, i 1, eq_ix2 i⟩
  have el : ∀ k : Fin 64, lidx_main_v16 (ix2 p c) k = ix2 p k := fun k => funext fun a => Fin.ext (by
    match a with | ⟨0, _⟩ => rfl | ⟨1, _⟩ => rfl)
  have er : ∀ k : Fin 64, ridx_main_v16 (ix2 p c) k = ix2 k c := fun k => funext fun a => Fin.ext (by
    match a with | ⟨0, _⟩ => rfl | ⟨1, _⟩ => rfl)
  have el' : ∀ k : Fin 64, lidx_main_v33 (ix2 p c) k = ix2 p k := fun k => funext fun a => Fin.ext (by
    match a with | ⟨0, _⟩ => rfl | ⟨1, _⟩ => rfl)
  have er' : ∀ k : Fin 64, ridx_main_v33 (ix2 p c) k = ix2 k c := fun k => funext fun a => Fin.ext (by
    match a with | ⟨0, _⟩ => rfl | ⟨1, _⟩ => rfl)
  have es : ∀ k : Fin 64, idx_main_v14 (ix2 p k) = ix2 p (0 : Fin 1) := fun k => funext fun a => Fin.ext (by
    match a with | ⟨0, _⟩ => rfl | ⟨1, _⟩ => rfl)
  have es' : ∀ k : Fin 64, idx_main_v31 (ix2 p k) = ix2 p (0 : Fin 1) := fun k => funext fun a => Fin.ext (by
    match a with | ⟨0, _⟩ => rfl | ⟨1, _⟩ => rfl)
  rw [combine_ix2, val_main_v34_apply, val_main_v16_apply, val_main_v33_apply]
  unfold combineAt
  simp only [el, er, el', er', val_main_v15_apply, val_main_v14_apply, val_main_v32_apply, val_main_v31_apply, es, es',
    Ideal.addf_def, Ideal.mulf_def]

end Cert.BiConv

end
-- ==== Proof.KernelResult.lean ====
/-
  The kernel's result array after the run, as the reference's function of the arguments.

  The result array ends holding the scaled-and-projected sum of the arrays the region is entered with.  Of those, the
  scales and the weights are arguments, untouched before the region; the two aggregated arrays are what the host
  operations before the region computed, and under the precondition — every endpoint's row number nonnegative — they
  are the reference's two aggregated arrays.  The reference's result is the same scaled-and-projected sum of those.
-/
import proofs.«154435_j12094627906069_2_alg».proof.Proof.KernelArray
import proofs.«154435_j12094627906069_2_alg».proof.Proof.AggregateBridge
import proofs.«154435_j12094627906069_2_alg».proof.Proof.EdgeRange
import proofs.«154435_j12094627906069_2_alg».proof.Proof.ReferenceValue

noncomputable section

namespace Cert.BiConv

open Idealize.ShloMosaic Idealize.ShloMosaic.TcCoe Idealize.SL.Sem Idealize.ShloMosaic.ValueIdx
open Cert.KernelIdeal Cert.KernelIdeal.Gen

/-- The scaled-and-projected sum of equal arrays is equal. -/
theorem combine_congr {R : Nat} {A A' B B' : (⟨2, ![R, 64]⟩ : Shape).Idx → EReal} {n n1 n' n1' : (⟨2, ![R, 1]⟩ : Shape).Idx → EReal}
    {W W1 W' W1' : (⟨2, ![64, 64]⟩ : Shape).Idx → EReal} (hA : A = A') (hB : B = B') (hn : n = n1) (hn' : n' = n1')
    (hW : W = W1) (hW' : W' = W1') : combine A B n n' W W' = combine A' B' n1 n1' W1 W1' := by
  subst hA hB hn hn' hW hW'; rfl

variable (m : (ℓ : Loc nD τ sig) → Buf (Elt Ideal) ℓ) (ρ : Dev nD → PrngReg)

/-- Under the precondition the sum of the region-entry arrays is the reference's result term of the arguments. -/
theorem entrySum_eq (hpre : Cert.Pre_KernelIdeal m) (c : Dev nD) :
    entrySum m c = Cert.ReferenceIdeal.Read.val_main_v34 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
  have hn := endpoints_nonneg m hpre c
  refine (combine_congr (entry_out m c) (entry_back m c) (V_main_arg3 m c) (V_main_arg4 m c) (V_main_arg5 m c)
    (V_main_arg6 m c)).trans ?_
  rw [zeroAggregate_eq_out (m ((c : Thread nD τ).loc main_arg0)) (m ((c : Thread nD τ).loc main_arg1))
      (m ((c : Thread nD τ).loc main_arg2)) (fun e => (hn e).2),
    zeroAggregate_eq_back (m ((c : Thread nD τ).loc main_arg0)) (m ((c : Thread nD τ).loc main_arg1))
      (m ((c : Thread nD τ).loc main_arg2)) (fun e => (hn e).1)]
  exact (reference_eq_combine _ _ _ _ _ _ _).symm

/-- The kernel's run: the result array at the sum of the region-entry arrays, the arguments unchanged. -/
theorem kernel_run : θ_run defs (onTc (τ := τ) (main (F := Ideal))) ⟨m, fun _ => 0, ρ⟩ fun r => ∀ c : Dev nD,
      r.2.mem ((c : Thread nD τ).loc main_v22) = entrySum m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.BiConv

end
-- ==== Proof.lean ====
/-
  The kernel and its reference compute the same array over the extended reals.

  Both programs aggregate, for every edge, the feature row of one endpoint into the row of the other endpoint (once
  in each direction) on top of the features themselves, scale each aggregated row, multiply by a 64 × 64 weight matrix,
  and add the two products.  The kernel program aggregates on the host into zeros and adds the features afterwards,
  then runs the scaling and the two matrix products in a kernel over ten blocks of 10000 rows; the reference does all
  of it on the host and accumulates directly into the features.

  The reference wraps a negative row number `i` to `i + 100000` before accumulating at it; the kernel program does
  not.  The precondition states that every endpoint's row number is nonnegative, where the wrap is the identity.  Then:

  * the two aggregated arrays agree (`0 + s + x = x + s`, valid at the infinities too);
  * each block the kernel writes is the rows of the scaled-and-projected sum its grid point owns, the narrowing of the
    factors being the identity on extended reals and the matrix unit from zeros the plain sum of products; the ten
    blocks cover the array;
  * the reference's contraction is the same sum of products.

  No finiteness of the float inputs is used.  The three frame claims are the generated frame proofs (the reference's
  from its generated run), and the idealization rewrote nothing.
-/
import proofs.«154435_j12094627906069_2_alg».proof.Defs
import proofs.«154435_j12094627906069_2_alg».proof.Proof.Gen.Kernel
import proofs.«154435_j12094627906069_2_alg».proof.Proof.Gen.Kernel.Skeleton
import proofs.«154435_j12094627906069_2_alg».proof.Proof.Gen.Kernel.Launch
import proofs.«154435_j12094627906069_2_alg».proof.Proof.Gen.Kernel.Points
import proofs.«154435_j12094627906069_2_alg».proof.Proof.Gen.Kernel.Frame
import proofs.«154435_j12094627906069_2_alg».proof.Proof.Gen.KernelIdeal
import proofs.«154435_j12094627906069_2_alg».proof.Proof.Gen.KernelIdeal.Skeleton
import proofs.«154435_j12094627906069_2_alg».proof.Proof.Gen.KernelIdeal.Launch
import proofs.«154435_j12094627906069_2_alg».proof.Proof.Gen.KernelIdeal.Points
import proofs.«154435_j12094627906069_2_alg».proof.Proof.Gen.KernelIdeal.Frame
import proofs.«154435_j12094627906069_2_alg».proof.Proof.Gen.ReferenceIdeal
import proofs.«154435_j12094627906069_2_alg».proof.Proof.Gen.Pre_finite_inputs
import proofs.«154435_j12094627906069_2_alg».proof.Proof.Gen.KernelIdeal.Value
import proofs.«154435_j12094627906069_2_alg».proof.Proof.Gen.ReferenceIdeal.Run
import proofs.«154435_j12094627906069_2_alg».proof.Proof.Gen.ReferenceIdeal.Read
import proofs.«154435_j12094627906069_2_alg».proof.Proof.KernelResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and keeps its arguments: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the reference's function of the (agreeing) arguments. -/
theorem algebraic : Cert.algebraic_KernelIdeal_ReferenceIdeal := by
  intro m ρ m' ρ' hpre hagree
  refine ⟨fun c => Cert.BiConv.entrySum m c, Cert.BiConv.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2.1, (hagree c).2.2.1, (hagree c).2.2.2.1,
    (hagree c).2.2.2.2.1, (hagree c).2.2.2.2.2.1, (hagree c).2.2.2.2.2.2]
  exact (Cert.BiConv.entrySum_eq m hpre c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
